-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn_part1 {F : FTy → Type} [FloatOps F] (main_v13 : IVec S_ 1) (main_v16 : IVec S8x4096x2048 1) : IVec S_ 1 :=
  let main_c_5 : IVec S_ 1 := constantI S_ 1 1#1
  let main_v17 : IVec S_ 1 := (fun x v => Host.reduce IntOp.andi x v reducesTo_S8x4096x2048_S_d0_1_2 h_S_) main_v16 main_c_5
  let main_v18 : IVec S_ 1 := andi main_v13 main_v17
  main_v18

def fn {F : FTy → Type} [FloatOps F] (main_arg0 : FVec F S8x2048x2048 .f32) (main_arg1 : FVec F S8x2048x4096 .f32) (main_arg2 : FVec F S8x2048x4096 .f32) (main_arg3 : FVec F S8x4096x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x4096 .f32 := Host.absf main_arg1
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S8x2048x4096 .f32 := Host.absf main_arg2
  let main_cst_2 : FVec F S_ .f32 := constant S_ .f32 0x7F800000#32
  let main_v10 : FVec F S8x2048x4096 .f32 := broadcastInDim S8x2048x4096 ![] bcast_S_S8x2048x4096 main_cst_2
  let main_v11 : IVec S8x2048x4096 1 := cmpf .olt main_v9 main_v10
  let main_c_3 : IVec S_ 1 := constantI S_ 1 1#1
  let main_v12 : IVec S_ 1 := (fun x v => Host.reduce IntOp.andi x v reducesTo_S8x2048x4096_S_d0_1_2 h_S_) main_v11 main_c_3
  let main_v13 : IVec S_ 1 := andi main_v8 main_v12
  let main_v14 : FVec F S8x4096x2048 .f32 := Host.absf main_arg3
  let main_cst_4 : FVec F S_ .f32 := constant S_ .f32 0x7F800000#32
  let main_v15 : FVec F S8x4096x2048 .f32 := broadcastInDim S8x4096x2048 ![] bcast_S_S8x4096x2048 main_cst_4
  let main_v16 : IVec S8x4096x2048 1 := cmpf .olt main_v14 main_v15
  fn_part1 (F := F) main_v13 main_v16
-- ==== Kernel.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S1x512x2048 : Shape := ⟨3, ![1, 512, 2048]⟩
abbrev S1x2048x256 : Shape := ⟨3, ![1, 2048, 256]⟩
abbrev S1x256x2048 : Shape := ⟨3, ![1, 256, 2048]⟩
abbrev S512x2048 : Shape := ⟨2, ![512, 2048]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 9
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S8x2048x4096, .f32⟩
  | .hbm, ⟨2, _⟩ => ⟨S8x2048x4096, .f32⟩
  | .hbm, ⟨3, _⟩ => ⟨S8x4096x2048, .f32⟩
  | .hbm, ⟨4, _⟩ => ⟨S8x2048x2048, .bf16⟩
  | .hbm, ⟨5, _⟩ => ⟨S8x2048x4096, .bf16⟩
  | .hbm, ⟨6, _⟩ => ⟨S8x2048x4096, .bf16⟩
  | .hbm, ⟨7, _⟩ => ⟨S8x4096x2048, .bf16⟩
  | .hbm, ⟨8, _⟩ => ⟨S8x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x512x2048, .f32⟩
  | .local _ .vmem, ⟨9, _⟩ => ⟨S1x512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .bf16 = 32 ∨ (Rect.block (s := S8x2048x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x4096.size a
  hwx0_1 : ∀ i : grid0.Coords, EltTy.bits .bf16 = 32 ∨ (Rect.block (s := S8x2048x4096) S1x2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x4096.size a
  hwx0_2 : ∀ i : grid0.Coords, EltTy.bits .bf16 = 32 ∨ (Rect.block (s := S8x2048x4096) S1x2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x4096x2048.size a
  hwx0_3 : ∀ i : grid0.Coords, EltTy.bits .bf16 = 32 ∨ (Rect.block (s := S8x4096x2048) S1x256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x2048x2048.size a
  hwx0_4 : ∀ i : grid0.Coords, EltTy.bits .f32 = 32 ∨ (Rect.block (s := S8x2048x2048) S1x512x2048.size (cc0_transform_4 i) (hinb0_4 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S8x2048x4096 : Shape := ⟨3, ![8, 2048, 4096]⟩
abbrev S8x4096x2048 : Shape := ⟨3, ![8, 4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x4096, .f32⟩
  | .hbm, ⟨2, _⟩ => ⟨S8x2048x4096, .f32⟩
  | .hbm, ⟨3, _⟩ => ⟨S8x4096x2048, .f32⟩
  | .hbm, ⟨4, _⟩ => ⟨S8x2048x4096, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x2048_S8x2048x4096_S8x2048x4096_2_1_1_2_0_0_wf : DotDims.WF S8x2048x2048 S8x2048x4096 S8x2048x4096 [2] [1] [1] [2] [0] [0]
  dot_S8x2048x4096_S8x4096x2048_S8x2048x2048_2_1_1_2_0_0_wf : DotDims.WF S8x2048x4096 S8x4096x2048 S8x2048x2048 [2] [1] [1] [2] [0] [0]

variable [Facts₀]

def dot_S8x2048x2048_S8x2048x4096_S8x2048x4096_2_1_1_2_0_0 : DotDims S8x2048x2048 S8x2048x4096 S8x2048x4096 where
  lhsContracting := [2]
  rhsContracting := [1]
  lhsNonContracting := [1]
  rhsNonContracting := [2]
  lhsBatch := [0]
  rhsBatch := [0]
  wf := dot_S8x2048x2048_S8x2048x4096_S8x2048x4096_2_1_1_2_0_0_wf
def dot_S8x2048x4096_S8x4096x2048_S8x2048x2048_2_1_1_2_0_0 : DotDims S8x2048x4096 S8x4096x2048 S8x2048x2048 where
  lhsContracting := [2]
  rhsContracting := [1]
  lhsNonContracting := [1]
  rhsNonContracting := [2]
  lhsBatch := [0]
  rhsBatch := [0]
  wf := dot_S8x2048x4096_S8x4096x2048_S8x2048x2048_2_1_1_2_0_0_wf

class Facts : Prop extends Facts₀ where

variable [Facts]
-- ==== Proof.LibSumTiles.lean ====
import Mathlib.Algebra.BigOperators.Fin
import Mathlib.Algebra.BigOperators.Intervals

/-!
# A sum over `a · b` consecutive rows is the sum over `a` tiles of `b` rows

General arithmetic for kernels that walk an array tile by tile and add each tile's sum to a running total: the total
over all `a · b` rows of any commutative monoid-valued function of the row number is the sum, over the `a` tiles, of
each tile's `b` rows; and the running total after the first `n + 1` tiles splits off its last tile.
-/

open scoped BigOperators

namespace Cert.LibSumTiles

/-- The rows `0 … a·b − 1` summed are the tiles `0 … a − 1` summed, each over its rows `t·b … t·b + b − 1`. -/
theorem sum_fin_mul {M : Type*} [AddCommMonoid M] (a b : ℕ) (g : ℕ → M) :
    ∑ k : Fin (a * b), g k.val = ∑ t : Fin a, ∑ r : Fin b, g (t.val * b + r.val) := by
  induction a with
  | zero => rw [Fin.sum_univ_eq_sum_range (fun k => g k) (0 * b)]; simp
  | succ a ih =>
    rw [Fin.sum_univ_castSucc (f := fun t : Fin (a + 1) => ∑ r : Fin b, g (t.val * b + r.val))]
    simp only [Fin.val_castSucc, Fin.val_last]
    rw [← ih, Fin.sum_univ_eq_sum_range (fun k => g k) ((a + 1) * b), Fin.sum_univ_eq_sum_range (fun k => g k) (a * b),
      Fin.sum_univ_eq_sum_range (fun r => g (a * b + r)) b, Nat.succ_mul, Finset.sum_range_add]

/-- The first `n + 2` tiles are the first `n + 1` and one more. -/
theorem sum_tiles_succ {M : Type*} [AddCommMonoid M] (n b : ℕ) (g : ℕ → M) :
    ∑ t : Fin (n + 2), ∑ r : Fin b, g (t.val * b + r.val)
      = (∑ t : Fin (n + 1), ∑ r : Fin b, g (t.val * b + r.val)) + ∑ r : Fin b, g ((n + 1) * b + r.val) := by
  rw [Fin.sum_univ_castSucc (f := fun t : Fin (n + 2) => ∑ r : Fin b, g (t.val * b + r.val))]
  simp only [Fin.val_castSucc, Fin.val_last]

end Cert.LibSumTiles
-- ==== Proof.SwigluSpec.lean ====
/-
  A per-expert gated two-layer map on the extended reals.

  For expert e and token row r the two pre-activations at hidden column h are the row of x against column h of w1 and
  of w2; the hidden value is gate * logistic(gate) * up; the output at column d is the sum over ALL hidden columns of
  hidden * w3.  Nothing here depends on a program: the arrays are plain functions of an index.
-/
import Idealize.ShloMosaic.PureOps.Ideal.Laws
import Idealize.ShloMosaic.Lib.ValueIdx
import proofs.«180975_j44890998177889_2_alg».proof.Proof.LibSumTiles

noncomputable section

open scoped BigOperators

namespace Cert.Swiglu

open Idealize.ShloMosaic Idealize.ShloMosaic.ValueIdx

/-- One pre-activation: token row `r` of expert `e` against column `h` of that expert's [2048, 4096] weight. -/
def proj (x : (⟨3, ![8, 2048, 2048]⟩ : Shape).Idx → EReal) (w : (⟨3, ![8, 2048, 4096]⟩ : Shape).Idx → EReal)
    (e : Fin 8) (r : Fin 2048) (h : Fin 4096) : EReal :=
  ∑ d : Fin 2048, x (ix3 e r d) * w (ix3 e d h)

/-- The hidden value: gate * logistic(gate) * up, grouped as written. -/
def hid (x : (⟨3, ![8, 2048, 2048]⟩ : Shape).Idx → EReal) (w1 w2 : (⟨3, ![8, 2048, 4096]⟩ : Shape).Idx → EReal)
    (e : Fin 8) (r : Fin 2048) (h : Fin 4096) : EReal :=
  proj x w1 e r h * Ideal.logistic (proj x w1 e r h) * proj x w2 e r h

/-- The output array: at (e, r, d) the sum over every hidden column of hidden * w3. -/
def out (x : (⟨3, ![8, 2048, 2048]⟩ : Shape).Idx → EReal) (w1 w2 : (⟨3, ![8, 2048, 4096]⟩ : Shape).Idx → EReal)
    (w3 : (⟨3, ![8, 4096, 2048]⟩ : Shape).Idx → EReal) : (⟨3, ![8, 2048, 2048]⟩ : Shape).Idx → EReal :=
  fun i => ∑ h : Fin 4096, hid x w1 w2 (i 0) (i 1) h * w3 (@ix3 8 4096 2048 (i 0) h (i 2))

/-- The output read at coordinates. -/
theorem out_apply (x : (⟨3, ![8, 2048, 2048]⟩ : Shape).Idx → EReal) (w1 w2 : (⟨3, ![8, 2048, 4096]⟩ : Shape).Idx → EReal)
    (w3 : (⟨3, ![8, 4096, 2048]⟩ : Shape).Idx → EReal) (e : Fin 8) (r : Fin 2048) (d : Fin 2048) :
    out x w1 w2 w3 (ix3 e r d) = ∑ h : Fin 4096, hid x w1 w2 e r h * w3 (ix3 e h d) := rfl

/-- Hidden column `j` of hidden tile `s`: the 4096 hidden columns are 16 tiles of 256. -/
def col (s : Fin 16) (j : Fin 256) : Fin 4096 := ⟨s.val * 256 + j.val, by have := s.isLt; have := j.isLt; omega⟩

/-- The output regrouped tile by tile: the sum over the 4096 hidden columns is the sum over the 16 tiles of each
    tile's 256 columns (addition on the extended reals is commutative and associative; nothing else is used). -/
theorem out_tiles (x : (⟨3, ![8, 2048, 2048]⟩ : Shape).Idx → EReal) (w1 w2 : (⟨3, ![8, 2048, 4096]⟩ : Shape).Idx → EReal)
    (w3 : (⟨3, ![8, 4096, 2048]⟩ : Shape).Idx → EReal) (e : Fin 8) (r : Fin 2048) (d : Fin 2048) :
    out x w1 w2 w3 (ix3 e r d) = ∑ s : Fin 16, ∑ j : Fin 256, hid x w1 w2 e r (col s j) * w3 (ix3 e (col s j) d) := by
  rw [out_apply]
  have key := Cert.LibSumTiles.sum_fin_mul 16 256
    (fun n => if h : n < 4096 then hid x w1 w2 e r ⟨n, h⟩ * w3 (ix3 e (⟨n, h⟩ : Fin 4096) d) else 0)
  refine (Finset.sum_congr rfl fun k _ => ?_).trans (key.trans (Finset.sum_congr rfl fun s _ => Finset.sum_congr rfl fun j _ => ?_))
  · rw [dif_pos k.isLt]
  · rw [dif_pos (show s.val * 256 + j.val < 4096 from (col s j).isLt)]
    rfl

/-- The f32 word of 1.0 is the extended real 1. -/
theorem ofBits_one_f32 : Ideal.ofBits .f32 0x3F800000#32 = 1 := by
  simp [Ideal.ofBits, Ideal.ieee, -EReal.coe_mul]; norm_num

end Cert.Swiglu

end
-- ==== Proof.RefSide.lean ====
/-
  The reference's result array is the gated map `Cert.Swiglu.out` of its four arguments: each batched product read
  at an index is a sum over its contracted axis, the reference's expansion of the logistic function into negate,
  exponential, add one and divide is the logistic function, and the products are grouped as in `Cert.Swiglu.hid`.
-/
import proofs.«180975_j44890998177889_2_alg».proof.Proof.Gen.ReferenceIdeal.Read
import proofs.«180975_j44890998177889_2_alg».proof.Proof.SwigluSpec

noncomputable section

open scoped BigOperators

namespace Cert.ReferenceIdeal.RefSide

open Cert.ReferenceIdeal Cert.ReferenceIdeal.Gen Cert.ReferenceIdeal.Read Idealize.ShloMosaic Idealize.ShloMosaic.ValueIdx
open Cert.Swiglu

variable (x0 : (⟨S8x2048x2048, .f32⟩ : BufTy).Contents (Elt Ideal))
variable (x1 x2 : (⟨S8x2048x4096, .f32⟩ : BufTy).Contents (Elt Ideal))
variable (x3 : (⟨S8x4096x2048, .f32⟩ : BufTy).Contents (Elt Ideal))

/-- The gate product at (e, r, h). -/
theorem gate_apply (e : Fin 8) (r : Fin 2048) (h : Fin 4096) :
    val_main_v0 (F := Ideal) x0 x1 (ix3 e r h) = proj x0 x1 e r h := by
  rw [val_main_v0_apply]
  unfold proj
  refine Finset.sum_congr rfl fun d _ => ?_
  have el : lidx_main_v0 (ix3 e r h) d = ix3 e r d :=
    funext fun a => Fin.ext (by match a with | ⟨0, _⟩ => rfl | ⟨1, _⟩ => rfl | ⟨2, _⟩ => rfl)
  have er : ridx_main_v0 (ix3 e r h) d = ix3 e d h :=
    funext fun a => Fin.ext (by match a with | ⟨0, _⟩ => rfl | ⟨1, _⟩ => rfl | ⟨2, _⟩ => rfl)
  rw [el, er]

/-- The up product at (e, r, h). -/
theorem up_apply (e : Fin 8) (r : Fin 2048) (h : Fin 4096) :
    val_main_v1 (F := Ideal) x0 x2 (ix3 e r h) = proj x0 x2 e r h := by
  rw [val_main_v1_apply]
  unfold proj
  refine Finset.sum_congr rfl fun d _ => ?_
  have el : lidx_main_v1 (ix3 e r h) d = ix3 e r d :=
    funext fun a => Fin.ext (by match a with | ⟨0, _⟩ => rfl | ⟨1, _⟩ => rfl | ⟨2, _⟩ => rfl)
  have er : ridx_main_v1 (ix3 e r h) d = ix3 e d h :=
    funext fun a => Fin.ext (by match a with | ⟨0, _⟩ => rfl | ⟨1, _⟩ => rfl | ⟨2, _⟩ => rfl)
  rw [el, er]

/-- The reference's hidden array at (e, r, h): 1 / (1 + exp (-gate)) is the logistic function of the gate. -/
theorem hidden_apply (e : Fin 8) (r : Fin 2048) (h : Fin 4096) :
    val_main_v3 (F := Ideal) x0 x1 x2 (ix3 e r h) = hid x0 x1 x2 e r h := by
  rw [val_main_v3_apply, val_main_v2_apply, val_main_call0_v5_apply, val_main_call0_v4_apply,
    val_main_call0_cst_0_apply, val_main_call0_v3_apply, val_main_call0_v2_apply, val_main_call0_cst_apply,
    val_main_call0_v1_apply, val_main_call0_v0_apply, up_apply, gate_apply]
  simp only [Ideal.ofBits_def, ofBits_one_f32]
  rfl

/-- The reference's result is the gated map of its arguments. -/
theorem result_eq : val_main_v4 (F := Ideal) x0 x1 x2 x3 = out x0 x1 x2 x3 := by
  funext i
  obtain ⟨e, r, d, rfl⟩ : ∃ (e : Fin 8) (r : Fin 2048) (d : Fin 2048), i = ix3 e r d := ⟨i 0, i 1, i 2, eq_ix3 i⟩
  rw [val_main_v4_apply, out_apply]
  refine Finset.sum_congr rfl fun k _ => ?_
  have el : lidx_main_v4 (ix3 e r d) k = ix3 e r k :=
    funext fun a => Fin.ext (by match a with | ⟨0, _⟩ => rfl | ⟨1, _⟩ => rfl | ⟨2, _⟩ => rfl)
  have er : ridx_main_v4 (ix3 e r d) k = ix3 e k d :=
    funext fun a => Fin.ext (by match a with | ⟨0, _⟩ => rfl | ⟨1, _⟩ => rfl | ⟨2, _⟩ => rfl)
  rw [el, er, hidden_apply]

end Cert.ReferenceIdeal.RefSide

end
-- ==== Proof.LibMlpRows.lean ====
/-
  Two-layer perceptron rows on the extended reals.

  A plain matrix product of an [E, K] array with a [K, H] array (the left operand contracted on its second axis, the
  right on its first) read at row r and column c is the sum over k of x (r, k) * w (k, c).  A concatenation of
  row-aligned pieces along the second axis reads, at column k, the piece whose span holds k.  So a product of a
  concatenation with W is the sum of the products of the pieces with the row bands of W: a finite sum split at the
  piece boundaries, which needs only that addition on the extended reals is commutative and associative.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

open scoped BigOperators

namespace Cert.MlpRows

open Idealize.ShloMosaic Idealize.ShloMosaic.ValueIdx

/-- The dimension numbers of a plain product [E, K] × [K, H] → [E, H]. -/
abbrev pdot (E K H : ℕ) (wf : DotDims.WF ⟨2, ![E, K]⟩ ⟨2, ![K, H]⟩ ⟨2, ![E, H]⟩ [1] [0] [0] [1] [] []) :
    DotDims ⟨2, ![E, K]⟩ ⟨2, ![K, H]⟩ ⟨2, ![E, H]⟩ :=
  { lhsContracting := [1], rhsContracting := [0], lhsNonContracting := [0], rhsNonContracting := [1],
    lhsBatch := [], rhsBatch := [], wf := wf }

/-- A plain product read at (r, c) is the sum over k of x (r, k) * w (k, c). -/
theorem pdot_apply {E K H : ℕ} (wf : DotDims.WF ⟨2, ![E, K]⟩ ⟨2, ![K, H]⟩ ⟨2, ![E, H]⟩ [1] [0] [0] [1] [] [])
    {φ₁ φ₂ : FTy} (prec : Option ContractPrecision) (x : FVec Ideal ⟨2, ![E, K]⟩ φ₁) (w : FVec Ideal ⟨2, ![K, H]⟩ φ₂)
    (r : Fin E) (c : Fin H) :
    Host.dotGeneral (pdot E K H wf) prec x w (ix2 r c) = ∑ k : Fin K, x (ix2 r k) * w (ix2 k c) := by
  simp only [Host.dotGeneral]
  rw [Ideal.dotGeneral_apply, ← Equiv.sum_comp (contrEquiv1 (pdot E K H wf) K rfl rfl).symm]
  refine Finset.sum_congr rfl fun k _ => ?_
  have hk := contrEquiv1_symm_val (pdot E K H wf) K rfl rfl k
  have el : (pdot E K H wf).lhsIdx (ix2 r c) ((contrEquiv1 (pdot E K H wf) K rfl rfl).symm k) = ix2 r k :=
    funext fun a => Fin.ext (by
      match a with
      | ⟨0, _⟩ =>
        show ((pdot E K H wf).lhsIdx (ix2 r c) _ 0).val = r.val
        unfold DotDims.lhsIdx
        rw [dif_neg (show ¬(0 : Fin 2) ∈ ([] : List (Fin 2)) by decide),
          dif_pos (show (0 : Fin 2) ∈ [(0 : Fin 2)] by decide)]
        rfl
      | ⟨1, _⟩ => exact ((pdot E K H wf).lhsIdx_val_of_single rfl _ _).trans hk)
  have er : (pdot E K H wf).rhsIdx (ix2 r c) ((contrEquiv1 (pdot E K H wf) K rfl rfl).symm k) = ix2 k c :=
    funext fun a => Fin.ext (by
      match a with
      | ⟨0, _⟩ => exact ((pdot E K H wf).rhsIdx_val_of_single rfl _ _).trans hk
      | ⟨1, _⟩ =>
        show ((pdot E K H wf).rhsIdx (ix2 r c) _ 1).val = c.val
        unfold DotDims.rhsIdx
        rw [dif_neg (show ¬(1 : Fin 2) ∈ ([] : List (Fin 2)) by decide),
          dif_pos (show (1 : Fin 2) ∈ [(1 : Fin 2)] by decide)]
        rfl)
  rw [el, er]

/-- The vector unit's product into a zero accumulator, read the same way. -/
theorem pmatmul_apply {E K H : ℕ} (wf : DotDims.WF ⟨2, ![E, K]⟩ ⟨2, ![K, H]⟩ ⟨2, ![E, H]⟩ [1] [0] [0] [1] [] [])
    {φ₁ φ₂ : FTy} (prec : Option ContractPrecision) (x : FVec Ideal ⟨2, ![E, K]⟩ φ₁) (w : FVec Ideal ⟨2, ![K, H]⟩ φ₂)
    (r : Fin E) (c : Fin H) :
    matmul (pdot E K H wf) prec x w (constant ⟨2, ![E, H]⟩ .f32 0x00000000#32) (ix2 r c)
      = ∑ k : Fin K, x (ix2 r k) * w (ix2 k c) := by
  rw [matmul_zero_eq_dotGeneral]; exact pdot_apply wf prec x w r c

/-- A [n] vector cast to a [1, n] row reads, at (0, c), the vector at c. -/
theorem shapeCast_n_1n_apply {n : ℕ} {α : Type} (b : (⟨1, ![n]⟩ : Shape).Idx → α)
    (h : (⟨1, ![n]⟩ : Shape).ShapeCasts ⟨2, ![1, n]⟩) (u : Fin 1) (c : Fin n) :
    shapeCast ⟨2, ![1, n]⟩ b h (ix2 u c) = b (ix1 c) :=
  shapeCast_apply b h _ _ (by
    have hu : u.val = 0 := by omega
    rw [Shape.rowMajor_val_two, Shape.rowMajor_val_one]
    show c.val = u.val * n + c.val
    rw [hu, Nat.zero_mul, Nat.zero_add])

/-- The f32 zero word read on the extended reals: the value both layers clamp at. -/
abbrev zero32 : Ideal .f32 := Scalar.ofBits .f32 0x00000000#32

/-! ## The row formulas -/

/-- One output of a layer whose input row is cut into three pieces: the three partial products against the bands of
    W starting at rows 0, o1 and o2, added left to right, plus the bias, clamped below at z. -/
def pre3 {K0 K1 K2 K H : ℕ} (o1 o2 : ℕ) (h0 : K0 ≤ K) (h1 : o1 + K1 ≤ K) (h2 : o2 + K2 ≤ K)
    (a0 : Fin K0 → EReal) (a1 : Fin K1 → EReal) (a2 : Fin K2 → EReal)
    (W : (⟨2, ![K, H]⟩ : Shape).Idx → EReal) (b : Fin H → EReal) (z : EReal) (h : Fin H) : EReal :=
  max ((((∑ k : Fin K0, a0 k * W (ix2 (⟨k.val, by have := k.isLt; omega⟩ : Fin K) h))
      + ∑ k : Fin K1, a1 k * W (ix2 (⟨o1 + k.val, by have := k.isLt; omega⟩ : Fin K) h))
      + ∑ k : Fin K2, a2 k * W (ix2 (⟨o2 + k.val, by have := k.isLt; omega⟩ : Fin K) h)) + b h) z

/-- The same with two pieces. -/
def pre2 {K0 K1 K H : ℕ} (o1 : ℕ) (h0 : K0 ≤ K) (h1 : o1 + K1 ≤ K)
    (a0 : Fin K0 → EReal) (a1 : Fin K1 → EReal)
    (W : (⟨2, ![K, H]⟩ : Shape).Idx → EReal) (b : Fin H → EReal) (z : EReal) (h : Fin H) : EReal :=
  max (((∑ k : Fin K0, a0 k * W (ix2 (⟨k.val, by have := k.isLt; omega⟩ : Fin K) h))
      + ∑ k : Fin K1, a1 k * W (ix2 (⟨o1 + k.val, by have := k.isLt; omega⟩ : Fin K) h)) + b h) z

/-- One output of a layer on a whole input row. -/
def lay {H O : ℕ} (a : Fin H → EReal) (W : (⟨2, ![H, O]⟩ : Shape).Idx → EReal) (b : Fin O → EReal) (z : EReal)
    (c : Fin O) : EReal :=
  max ((∑ h : Fin H, a h * W (ix2 h c)) + b c) z

/-! ## The kernel body's layers read at (r, c) -/

/-- A layer of the kernel body on one input: product into a zero accumulator, bias row broadcast down the rows,
    maximum with a splat. -/
theorem klay_apply {T H O : ℕ} (wf : DotDims.WF ⟨2, ![T, H]⟩ ⟨2, ![H, O]⟩ ⟨2, ![T, O]⟩ [1] [0] [0] [1] [] [])
    {φ ψ : FTy} (X : FVec Ideal ⟨2, ![T, H]⟩ φ) (W : FVec Ideal ⟨2, ![H, O]⟩ ψ) (b : FVec Ideal ⟨2, ![1, O]⟩ .f32)
    (sc : (⟨2, ![1, O]⟩ : Shape).ShapeCasts ⟨2, ![1, O]⟩) (bc : (⟨2, ![1, O]⟩ : Shape).Broadcasts ⟨2, ![T, O]⟩)
    (z : Ideal .f32) (r : Fin T) (c : Fin O) :
    maximumf (addf (matmul (pdot T H O wf) none X W (constant ⟨2, ![T, O]⟩ .f32 0x00000000#32))
        (broadcastTo ⟨2, ![T, O]⟩ (shapeCast ⟨2, ![1, O]⟩ b sc) bc)) (broadcast ⟨2, ![T, O]⟩ z) (ix2 r c)
      = lay (fun h => X (ix2 r h)) W (fun c => b (ix2 (0 : Fin 1) c)) z c := by
  rw [shapeCast_self, maximumf_apply, addf_apply, pmatmul_apply, broadcastTo_1b_ab_apply]
  rfl

/-- One band product of the first layer: the piece, cast to its own shape, against the band of the weight matrix
    starting at row o. -/
theorem kband_apply {T Ki K H : ℕ} (o : ℕ) (hb : o + Ki ≤ K)
    (wf : DotDims.WF ⟨2, ![T, Ki]⟩ ⟨2, ![Ki, H]⟩ ⟨2, ![T, H]⟩ [1] [0] [0] [1] [] [])
    {φ ψ : FTy} (x : FVec Ideal ⟨2, ![T, Ki]⟩ φ) (W : FVec Ideal ⟨2, ![K, H]⟩ ψ)
    (sc : (⟨2, ![T, Ki]⟩ : Shape).ShapeCasts ⟨2, ![T, Ki]⟩)
    (sl : (⟨2, ![K, H]⟩ : Shape).Slices ![o, 0] ⟨2, ![Ki, H]⟩) (r : Fin T) (h : Fin H) :
    matmul (pdot T Ki H wf) none (shapeCast ⟨2, ![T, Ki]⟩ x sc) (extractStridedSlice ⟨2, ![Ki, H]⟩ ![o, 0] W sl)
        (constant ⟨2, ![T, H]⟩ .f32 0x00000000#32) (ix2 r h)
      = ∑ k : Fin Ki, x (ix2 r k) * W (ix2 (⟨o + k.val, by have := k.isLt; omega⟩ : Fin K) h) := by
  rw [shapeCast_self, pmatmul_apply]
  refine Finset.sum_congr rfl fun k _ => ?_
  rw [slice2_axis0_apply o W sl k h ⟨o + k.val, by have := k.isLt; omega⟩ rfl]

/-- The whole kernel body with a three-piece input, read at (r, c): the second layer of the first. Narrowing a
    value's float format changes nothing on the extended reals. -/
theorem kernel3_apply {T K0 K1 K2 K H O : ℕ} (o1 o2 : ℕ) (h0 : K0 ≤ K) (h1 : o1 + K1 ≤ K) (h2 : o2 + K2 ≤ K)
    (wfA : DotDims.WF ⟨2, ![T, K0]⟩ ⟨2, ![K0, H]⟩ ⟨2, ![T, H]⟩ [1] [0] [0] [1] [] [])
    (wfB : DotDims.WF ⟨2, ![T, K1]⟩ ⟨2, ![K1, H]⟩ ⟨2, ![T, H]⟩ [1] [0] [0] [1] [] [])
    (wfC : DotDims.WF ⟨2, ![T, K2]⟩ ⟨2, ![K2, H]⟩ ⟨2, ![T, H]⟩ [1] [0] [0] [1] [] [])
    (wf2 : DotDims.WF ⟨2, ![T, H]⟩ ⟨2, ![H, O]⟩ ⟨2, ![T, O]⟩ [1] [0] [0] [1] [] [])
    (hlt : FTy.bf16.bits < FTy.f32.bits)
    (v0 : FVec Ideal ⟨2, ![K, H]⟩ .f32) (v2 : FVec Ideal ⟨2, ![T, K0]⟩ .bf16) (v6 : FVec Ideal ⟨2, ![T, K1]⟩ .bf16)
    (v11 : FVec Ideal ⟨2, ![T, K2]⟩ .bf16) (v16 : FVec Ideal ⟨2, ![1, H]⟩ .f32) (v23 : FVec Ideal ⟨2, ![H, O]⟩ .f32)
    (v26 : FVec Ideal ⟨2, ![1, O]⟩ .f32)
    (sc2 : (⟨2, ![T, K0]⟩ : Shape).ShapeCasts ⟨2, ![T, K0]⟩) (sc6 : (⟨2, ![T, K1]⟩ : Shape).ShapeCasts ⟨2, ![T, K1]⟩)
    (sc11 : (⟨2, ![T, K2]⟩ : Shape).ShapeCasts ⟨2, ![T, K2]⟩)
    (sl0 : (⟨2, ![K, H]⟩ : Shape).Slices ![0, 0] ⟨2, ![K0, H]⟩) (sl1 : (⟨2, ![K, H]⟩ : Shape).Slices ![o1, 0] ⟨2, ![K1, H]⟩)
    (sl2 : (⟨2, ![K, H]⟩ : Shape).Slices ![o2, 0] ⟨2, ![K2, H]⟩)
    (sc16 : (⟨2, ![1, H]⟩ : Shape).ShapeCasts ⟨2, ![1, H]⟩) (bc1 : (⟨2, ![1, H]⟩ : Shape).Broadcasts ⟨2, ![T, H]⟩)
    (sc26 : (⟨2, ![1, O]⟩ : Shape).ShapeCasts ⟨2, ![1, O]⟩) (bc2 : (⟨2, ![1, O]⟩ : Shape).Broadcasts ⟨2, ![T, O]⟩)
    (z : Ideal .f32) (r : Fin T) (c : Fin O) :
    maximumf (addf (matmul (pdot T H O wf2) none
        (truncf .bf16 (maximumf (addf (addf (addf
            (matmul (pdot T K0 H wfA) none (shapeCast ⟨2, ![T, K0]⟩ v2 sc2)
              (extractStridedSlice ⟨2, ![K0, H]⟩ ![0, 0] (truncf .bf16 v0 hlt) sl0) (constant ⟨2, ![T, H]⟩ .f32 0x00000000#32))
            (matmul (pdot T K1 H wfB) none (shapeCast ⟨2, ![T, K1]⟩ v6 sc6)
              (extractStridedSlice ⟨2, ![K1, H]⟩ ![o1, 0] (truncf .bf16 v0 hlt) sl1) (constant ⟨2, ![T, H]⟩ .f32 0x00000000#32)))
            (matmul (pdot T K2 H wfC) none (shapeCast ⟨2, ![T, K2]⟩ v11 sc11)
              (extractStridedSlice ⟨2, ![K2, H]⟩ ![o2, 0] (truncf .bf16 v0 hlt) sl2) (constant ⟨2, ![T, H]⟩ .f32 0x00000000#32)))
            (broadcastTo ⟨2, ![T, H]⟩ (shapeCast ⟨2, ![1, H]⟩ v16 sc16) bc1)) (broadcast ⟨2, ![T, H]⟩ z)) hlt)
        (truncf .bf16 v23 hlt) (constant ⟨2, ![T, O]⟩ .f32 0x00000000#32))
        (broadcastTo ⟨2, ![T, O]⟩ (shapeCast ⟨2, ![1, O]⟩ v26 sc26) bc2)) (broadcast ⟨2, ![T, O]⟩ z) (ix2 r c)
      = lay (pre3 o1 o2 h0 h1 h2 (fun k => v2 (ix2 r k)) (fun k => v6 (ix2 r k)) (fun k => v11 (ix2 r k)) v0
          (fun h => v16 (ix2 (0 : Fin 1) h)) z) v23 (fun c => v26 (ix2 (0 : Fin 1) c)) z c := by
  rw [klay_apply]
  unfold lay
  refine congrArg (fun s => max (s + v26 (ix2 (0 : Fin 1) c)) z) (Finset.sum_congr rfl fun h _ => ?_)
  refine congrArg (· * v23 (ix2 h c)) ?_
  beta_reduce
  rw [truncf_apply, maximumf_apply, addf_apply, addf_apply, addf_apply,
    kband_apply 0 (by omega) wfA v2 (truncf .bf16 v0 hlt) sc2 sl0 r h,
    kband_apply o1 h1 wfB v6 (truncf .bf16 v0 hlt) sc6 sl1 r h,
    kband_apply o2 h2 wfC v11 (truncf .bf16 v0 hlt) sc11 sl2 r h, shapeCast_self, broadcastTo_1b_ab_apply]
  unfold pre3
  simp only [Nat.zero_add, truncf_apply, broadcast_apply]

/-- The whole kernel body with a two-piece input, read at (r, c). -/
theorem kernel2_apply {T K0 K1 K H O : ℕ} (o1 : ℕ) (h0 : K0 ≤ K) (h1 : o1 + K1 ≤ K)
    (wfA : DotDims.WF ⟨2, ![T, K0]⟩ ⟨2, ![K0, H]⟩ ⟨2, ![T, H]⟩ [1] [0] [0] [1] [] [])
    (wfB : DotDims.WF ⟨2, ![T, K1]⟩ ⟨2, ![K1, H]⟩ ⟨2, ![T, H]⟩ [1] [0] [0] [1] [] [])
    (wf2 : DotDims.WF ⟨2, ![T, H]⟩ ⟨2, ![H, O]⟩ ⟨2, ![T, O]⟩ [1] [0] [0] [1] [] [])
    (hlt : FTy.bf16.bits < FTy.f32.bits)
    (v0 : FVec Ideal ⟨2, ![K, H]⟩ .f32) (v2 : FVec Ideal ⟨2, ![T, K0]⟩ .bf16) (v6 : FVec Ideal ⟨2, ![T, K1]⟩ .bf16)
    (v16 : FVec Ideal ⟨2, ![1, H]⟩ .f32) (v23 : FVec Ideal ⟨2, ![H, O]⟩ .f32) (v26 : FVec Ideal ⟨2, ![1, O]⟩ .f32)
    (sc2 : (⟨2, ![T, K0]⟩ : Shape).ShapeCasts ⟨2, ![T, K0]⟩) (sc6 : (⟨2, ![T, K1]⟩ : Shape).ShapeCasts ⟨2, ![T, K1]⟩)
    (sl0 : (⟨2, ![K, H]⟩ : Shape).Slices ![0, 0] ⟨2, ![K0, H]⟩) (sl1 : (⟨2, ![K, H]⟩ : Shape).Slices ![o1, 0] ⟨2, ![K1, H]⟩)
    (sc16 : (⟨2, ![1, H]⟩ : Shape).ShapeCasts ⟨2, ![1, H]⟩) (bc1 : (⟨2, ![1, H]⟩ : Shape).Broadcasts ⟨2, ![T, H]⟩)
    (sc26 : (⟨2, ![1, O]⟩ : Shape).ShapeCasts ⟨2, ![1, O]⟩) (bc2 : (⟨2, ![1, O]⟩ : Shape).Broadcasts ⟨2, ![T, O]⟩)
    (z : Ideal .f32) (r : Fin T) (c : Fin O) :
    maximumf (addf (matmul (pdot T H O wf2) none
        (truncf .bf16 (maximumf (addf (addf
            (matmul (pdot T K0 H wfA) none (shapeCast ⟨2, ![T, K0]⟩ v2 sc2)
              (extractStridedSlice ⟨2, ![K0, H]⟩ ![0, 0] (truncf .bf16 v0 hlt) sl0) (constant ⟨2, ![T, H]⟩ .f32 0x00000000#32))
            (matmul (pdot T K1 H wfB) none (shapeCast ⟨2, ![T, K1]⟩ v6 sc6)
              (extractStridedSlice ⟨2, ![K1, H]⟩ ![o1, 0] (truncf .bf16 v0 hlt) sl1) (constant ⟨2, ![T, H]⟩ .f32 0x00000000#32)))
            (broadcastTo ⟨2, ![T, H]⟩ (shapeCast ⟨2, ![1, H]⟩ v16 sc16) bc1)) (broadcast ⟨2, ![T, H]⟩ z)) hlt)
        (truncf .bf16 v23 hlt) (constant ⟨2, ![T, O]⟩ .f32 0x00000000#32))
        (broadcastTo ⟨2, ![T, O]⟩ (shapeCast ⟨2, ![1, O]⟩ v26 sc26) bc2)) (broadcast ⟨2, ![T, O]⟩ z) (ix2 r c)
      = lay (pre2 o1 h0 h1 (fun k => v2 (ix2 r k)) (fun k => v6 (ix2 r k)) v0
          (fun h => v16 (ix2 (0 : Fin 1) h)) z) v23 (fun c => v26 (ix2 (0 : Fin 1) c)) z c := by
  rw [klay_apply]
  unfold lay
  refine congrArg (fun s => max (s + v26 (ix2 (0 : Fin 1) c)) z) (Finset.sum_congr rfl fun h _ => ?_)
  refine congrArg (· * v23 (ix2 h c)) ?_
  beta_reduce
  rw [truncf_apply, maximumf_apply, addf_apply, addf_apply,
    kband_apply 0 (by omega) wfA v2 (truncf .bf16 v0 hlt) sc2 sl0 r h,
    kband_apply o1 h1 wfB v6 (truncf .bf16 v0 hlt) sc6 sl1 r h, shapeCast_self, broadcastTo_1b_ab_apply]
  unfold pre2
  simp only [Nat.zero_add, truncf_apply, broadcast_apply]

/-! ## The reference's layers read at (R, c) -/

/-- A [n] bias placed as the [1, n] row reads, at (u, c), the bias at c. -/
theorem bias_row_apply {n : ℕ} {α : Type} (b : (⟨1, ![n]⟩ : Shape).Idx → α)
    (h : (⟨1, ![n]⟩ : Shape).BroadcastsInDim ⟨2, ![1, n]⟩ ![1]) (u : Fin 1) (c : Fin n) :
    broadcastInDim ⟨2, ![1, n]⟩ ![1] h b (ix2 u c) = b (ix1 c) := by
  refine broadcastInDim_apply _ h b _ (ix1 c) fun a => ?_
  match a with
  | ⟨0, _⟩ =>
    show c.val = if n = 1 then 0 else c.val
    split
    · have := c.isLt; omega
    · rfl

/-- A layer of the reference on one whole input array: product, bias broadcast down the rows, maximum with an array
    that holds z everywhere. -/
theorem rlay_apply {E H O : ℕ} (wf : DotDims.WF ⟨2, ![E, H]⟩ ⟨2, ![H, O]⟩ ⟨2, ![E, O]⟩ [1] [0] [0] [1] [] [])
    {φ ψ : FTy} (X : FVec Ideal ⟨2, ![E, H]⟩ φ) (W : FVec Ideal ⟨2, ![H, O]⟩ ψ) (b : FVec Ideal ⟨1, ![O]⟩ .f32)
    (hbr : (⟨1, ![O]⟩ : Shape).BroadcastsInDim ⟨2, ![1, O]⟩ ![1])
    (hbb : (⟨2, ![1, O]⟩ : Shape).BroadcastsInDim ⟨2, ![E, O]⟩ ![0, 1])
    (Z : FVec Ideal ⟨2, ![E, O]⟩ .f32) (z : Ideal .f32) (hZ : ∀ i, Z i = z) (R : Fin E) (c : Fin O) :
    maximumf (addf (Host.dotGeneral (pdot E H O wf) none X W)
        (broadcastInDim ⟨2, ![E, O]⟩ ![0, 1] hbb (broadcastInDim ⟨2, ![1, O]⟩ ![1] hbr b))) Z (ix2 R c)
      = lay (fun h => X (ix2 R h)) W (fun c => b (ix1 c)) z c := by
  rw [maximumf_apply, addf_apply, pdot_apply, broadcastInDim_oneRow_apply, bias_row_apply, hZ]
  rfl

/-- The product of a three-piece concatenation along the second axis with W, read at (R, h): the sum over the
    joined axis split at the two piece boundaries. -/
theorem cat3_dot_apply {E K0 K1 K2 K H : ℕ} (hK : K = K0 + K1 + K2)
    (wf : DotDims.WF ⟨2, ![E, K]⟩ ⟨2, ![K, H]⟩ ⟨2, ![E, H]⟩ [1] [0] [0] [1] [] [])
    (x0 : FVec Ideal ⟨2, ![E, K0]⟩ .f32) (x1 : FVec Ideal ⟨2, ![E, K1]⟩ .f32) (x2 : FVec Ideal ⟨2, ![E, K2]⟩ .f32)
    (W : FVec Ideal ⟨2, ![K, H]⟩ .f32)
    (hc : Shape.Concatenates [⟨2, ![E, K0]⟩, ⟨2, ![E, K1]⟩, ⟨2, ![E, K2]⟩] ⟨2, ![E, K]⟩ 1) (R : Fin E) (h : Fin H) :
    Host.dotGeneral (pdot E K H wf) none
        (concatenate ⟨2, ![E, K]⟩ 1 [⟨⟨2, ![E, K0]⟩, x0⟩, ⟨⟨2, ![E, K1]⟩, x1⟩, ⟨⟨2, ![E, K2]⟩, x2⟩] hc) W (ix2 R h)
      = ((∑ k : Fin K0, x0 (ix2 R k) * W (ix2 (⟨k.val, by have := k.isLt; omega⟩ : Fin K) h))
        + ∑ k : Fin K1, x1 (ix2 R k) * W (ix2 (⟨K0 + k.val, by have := k.isLt; omega⟩ : Fin K) h))
        + ∑ k : Fin K2, x2 (ix2 R k) * W (ix2 (⟨K0 + K1 + k.val, by have := k.isLt; omega⟩ : Fin K) h) := by
  subst hK
  rw [pdot_apply, Fin.sum_univ_add, Fin.sum_univ_add]
  refine congrArg₂ (· + ·) (congrArg₂ (· + ·) ?_ ?_) ?_
  · refine Finset.sum_congr rfl fun k _ => ?_
    refine congrArg₂ (· * ·) ?_ (congrArg W (congrArg (ix2 · h) (Fin.ext rfl)))
    refine concatenate_apply_piece (α := Ideal .f32) (t := ⟨2, ![E, K0 + K1 + K2]⟩) 1 [⟨⟨2, ![E, K0]⟩, x0⟩, ⟨⟨2, ![E, K1]⟩, x1⟩, ⟨⟨2, ![E, K2]⟩, x2⟩] hc _ 0 (by simp) ⟨2, ![E, K0]⟩ x0 rfl rfl 0 rfl (ix2 R k) (fun b => ?_) ?_
    · match b with
      | ⟨0, _⟩ => exact fun _ => rfl
      | ⟨1, _⟩ => exact fun hb => absurd rfl hb
    · exact Nat.zero_add _
  · refine Finset.sum_congr rfl fun k _ => ?_
    refine congrArg₂ (· * ·) ?_ (congrArg W (congrArg (ix2 · h) (Fin.ext rfl)))
    refine concatenate_apply_piece (α := Ideal .f32) (t := ⟨2, ![E, K0 + K1 + K2]⟩) 1 [⟨⟨2, ![E, K0]⟩, x0⟩, ⟨⟨2, ![E, K1]⟩, x1⟩, ⟨⟨2, ![E, K2]⟩, x2⟩] hc _ 1 (by simp) ⟨2, ![E, K1]⟩ x1 rfl rfl K0 rfl (ix2 R k) (fun b => ?_) ?_
    · match b with
      | ⟨0, _⟩ => exact fun _ => rfl
      | ⟨1, _⟩ => exact fun hb => absurd rfl hb
    · rfl
  · refine Finset.sum_congr rfl fun k _ => ?_
    refine congrArg₂ (· * ·) ?_ (congrArg W (congrArg (ix2 · h) (Fin.ext rfl)))
    refine concatenate_apply_piece (α := Ideal .f32) (t := ⟨2, ![E, K0 + K1 + K2]⟩) 1 [⟨⟨2, ![E, K0]⟩, x0⟩, ⟨⟨2, ![E, K1]⟩, x1⟩, ⟨⟨2, ![E, K2]⟩, x2⟩] hc _ 2 (by simp) ⟨2, ![E, K2]⟩ x2 rfl rfl (K0 + K1) ?_ (ix2 R k) (fun b => ?_) ?_
    · show K0 + (K1 + 0) = K0 + K1
      rfl
    · match b with
      | ⟨0, _⟩ => exact fun _ => rfl
      | ⟨1, _⟩ => exact fun hb => absurd rfl hb
    · rfl

/-- The same for two pieces. -/
theorem cat2_dot_apply {E K0 K1 K H : ℕ} (hK : K = K0 + K1)
    (wf : DotDims.WF ⟨2, ![E, K]⟩ ⟨2, ![K, H]⟩ ⟨2, ![E, H]⟩ [1] [0] [0] [1] [] [])
    (x0 : FVec Ideal ⟨2, ![E, K0]⟩ .f32) (x1 : FVec Ideal ⟨2, ![E, K1]⟩ .f32) (W : FVec Ideal ⟨2, ![K, H]⟩ .f32)
    (hc : Shape.Concatenates [⟨2, ![E, K0]⟩, ⟨2, ![E, K1]⟩] ⟨2, ![E, K]⟩ 1) (R : Fin E) (h : Fin H) :
    Host.dotGeneral (pdot E K H wf) none
        (concatenate ⟨2, ![E, K]⟩ 1 [⟨⟨2, ![E, K0]⟩, x0⟩, ⟨⟨2, ![E, K1]⟩, x1⟩] hc) W (ix2 R h)
      = (∑ k : Fin K0, x0 (ix2 R k) * W (ix2 (⟨k.val, by have := k.isLt; omega⟩ : Fin K) h))
        + ∑ k : Fin K1, x1 (ix2 R k) * W (ix2 (⟨K0 + k.val, by have := k.isLt; omega⟩ : Fin K) h) := by
  subst hK
  rw [pdot_apply, Fin.sum_univ_add]
  refine congrArg₂ (· + ·) ?_ ?_
  · refine Finset.sum_congr rfl fun k _ => ?_
    refine congrArg₂ (· * ·) ?_ (congrArg W (congrArg (ix2 · h) (Fin.ext rfl)))
    refine concatenate_apply_piece (α := Ideal .f32) (t := ⟨2, ![E, K0 + K1]⟩) 1 [⟨⟨2, ![E, K0]⟩, x0⟩, ⟨⟨2, ![E, K1]⟩, x1⟩] hc _ 0 (by simp) ⟨2, ![E, K0]⟩ x0 rfl rfl 0 rfl (ix2 R k) (fun b => ?_) ?_
    · match b with
      | ⟨0, _⟩ => exact fun _ => rfl
      | ⟨1, _⟩ => exact fun hb => absurd rfl hb
    · exact Nat.zero_add _
  · refine Finset.sum_congr rfl fun k _ => ?_
    refine congrArg₂ (· * ·) ?_ (congrArg W (congrArg (ix2 · h) (Fin.ext rfl)))
    refine concatenate_apply_piece (α := Ideal .f32) (t := ⟨2, ![E, K0 + K1]⟩) 1 [⟨⟨2, ![E, K0]⟩, x0⟩, ⟨⟨2, ![E, K1]⟩, x1⟩] hc _ 1 (by simp) ⟨2, ![E, K1]⟩ x1 rfl rfl K0 rfl (ix2 R k) (fun b => ?_) ?_
    · match b with
      | ⟨0, _⟩ => exact fun _ => rfl
      | ⟨1, _⟩ => exact fun hb => absurd rfl hb
    · rfl

/-- The reference's two layers on a three-piece concatenation, read at (R, c). -/
theorem ref3_apply {E K0 K1 K2 K H O : ℕ} (hK : K = K0 + K1 + K2)
    (wf1 : DotDims.WF ⟨2, ![E, K]⟩ ⟨2, ![K, H]⟩ ⟨2, ![E, H]⟩ [1] [0] [0] [1] [] [])
    (wf2 : DotDims.WF ⟨2, ![E, H]⟩ ⟨2, ![H, O]⟩ ⟨2, ![E, O]⟩ [1] [0] [0] [1] [] [])
    (x0 : FVec Ideal ⟨2, ![E, K0]⟩ .f32) (x1 : FVec Ideal ⟨2, ![E, K1]⟩ .f32) (x2 : FVec Ideal ⟨2, ![E, K2]⟩ .f32)
    (W1 : FVec Ideal ⟨2, ![K, H]⟩ .f32) (b1 : FVec Ideal ⟨1, ![H]⟩ .f32) (W2 : FVec Ideal ⟨2, ![H, O]⟩ .f32)
    (b2 : FVec Ideal ⟨1, ![O]⟩ .f32)
    (hc : Shape.Concatenates [⟨2, ![E, K0]⟩, ⟨2, ![E, K1]⟩, ⟨2, ![E, K2]⟩] ⟨2, ![E, K]⟩ 1)
    (hbr1 : (⟨1, ![H]⟩ : Shape).BroadcastsInDim ⟨2, ![1, H]⟩ ![1])
    (hbb1 : (⟨2, ![1, H]⟩ : Shape).BroadcastsInDim ⟨2, ![E, H]⟩ ![0, 1])
    (hbr2 : (⟨1, ![O]⟩ : Shape).BroadcastsInDim ⟨2, ![1, O]⟩ ![1])
    (hbb2 : (⟨2, ![1, O]⟩ : Shape).BroadcastsInDim ⟨2, ![E, O]⟩ ![0, 1])
    (Z1 : FVec Ideal ⟨2, ![E, H]⟩ .f32) (Z2 : FVec Ideal ⟨2, ![E, O]⟩ .f32) (z : Ideal .f32)
    (hZ1 : ∀ i, Z1 i = z) (hZ2 : ∀ i, Z2 i = z) (R : Fin E) (c : Fin O) :
    maximumf (addf (Host.dotGeneral (pdot E H O wf2) none
        (maximumf (addf (Host.dotGeneral (pdot E K H wf1) none
            (concatenate ⟨2, ![E, K]⟩ 1 [⟨⟨2, ![E, K0]⟩, x0⟩, ⟨⟨2, ![E, K1]⟩, x1⟩, ⟨⟨2, ![E, K2]⟩, x2⟩] hc) W1)
          (broadcastInDim ⟨2, ![E, H]⟩ ![0, 1] hbb1 (broadcastInDim ⟨2, ![1, H]⟩ ![1] hbr1 b1))) Z1) W2)
        (broadcastInDim ⟨2, ![E, O]⟩ ![0, 1] hbb2 (broadcastInDim ⟨2, ![1, O]⟩ ![1] hbr2 b2))) Z2 (ix2 R c)
      = lay (pre3 K0 (K0 + K1) (by omega) (by omega) (by omega) (fun k => x0 (ix2 R k)) (fun k => x1 (ix2 R k))
          (fun k => x2 (ix2 R k)) W1 (fun h => b1 (ix1 h)) z) W2 (fun c => b2 (ix1 c)) z c := by
  rw [rlay_apply wf2 _ W2 b2 hbr2 hbb2 Z2 z hZ2]
  unfold lay
  refine congrArg (fun s => max (s + b2 (ix1 c)) z) (Finset.sum_congr rfl fun h _ => ?_)
  refine congrArg (· * W2 (ix2 h c)) ?_
  beta_reduce
  rw [maximumf_apply, addf_apply, cat3_dot_apply hK, broadcastInDim_oneRow_apply, bias_row_apply, hZ1]
  rfl

/-- The reference's two layers on a two-piece concatenation, read at (R, c). -/
theorem ref2_apply {E K0 K1 K H O : ℕ} (hK : K = K0 + K1)
    (wf1 : DotDims.WF ⟨2, ![E, K]⟩ ⟨2, ![K, H]⟩ ⟨2, ![E, H]⟩ [1] [0] [0] [1] [] [])
    (wf2 : DotDims.WF ⟨2, ![E, H]⟩ ⟨2, ![H, O]⟩ ⟨2, ![E, O]⟩ [1] [0] [0] [1] [] [])
    (x0 : FVec Ideal ⟨2, ![E, K0]⟩ .f32) (x1 : FVec Ideal ⟨2, ![E, K1]⟩ .f32)
    (W1 : FVec Ideal ⟨2, ![K, H]⟩ .f32) (b1 : FVec Ideal ⟨1, ![H]⟩ .f32) (W2 : FVec Ideal ⟨2, ![H, O]⟩ .f32)
    (b2 : FVec Ideal ⟨1, ![O]⟩ .f32)
    (hc : Shape.Concatenates [⟨2, ![E, K0]⟩, ⟨2, ![E, K1]⟩] ⟨2, ![E, K]⟩ 1)
    (hbr1 : (⟨1, ![H]⟩ : Shape).BroadcastsInDim ⟨2, ![1, H]⟩ ![1])
    (hbb1 : (⟨2, ![1, H]⟩ : Shape).BroadcastsInDim ⟨2, ![E, H]⟩ ![0, 1])
    (hbr2 : (⟨1, ![O]⟩ : Shape).BroadcastsInDim ⟨2, ![1, O]⟩ ![1])
    (hbb2 : (⟨2, ![1, O]⟩ : Shape).BroadcastsInDim ⟨2, ![E, O]⟩ ![0, 1])
    (Z1 : FVec Ideal ⟨2, ![E, H]⟩ .f32) (Z2 : FVec Ideal ⟨2, ![E, O]⟩ .f32) (z : Ideal .f32)
    (hZ1 : ∀ i, Z1 i = z) (hZ2 : ∀ i, Z2 i = z) (R : Fin E) (c : Fin O) :
    maximumf (addf (Host.dotGeneral (pdot E H O wf2) none
        (maximumf (addf (Host.dotGeneral (pdot E K H wf1) none
            (concatenate ⟨2, ![E, K]⟩ 1 [⟨⟨2, ![E, K0]⟩, x0⟩, ⟨⟨2, ![E, K1]⟩, x1⟩] hc) W1)
          (broadcastInDim ⟨2, ![E, H]⟩ ![0, 1] hbb1 (broadcastInDim ⟨2, ![1, H]⟩ ![1] hbr1 b1))) Z1) W2)
        (broadcastInDim ⟨2, ![E, O]⟩ ![0, 1] hbb2 (broadcastInDim ⟨2, ![1, O]⟩ ![1] hbr2 b2))) Z2 (ix2 R c)
      = lay (pre2 K0 (by omega) (by omega) (fun k => x0 (ix2 R k)) (fun k => x1 (ix2 R k))
          W1 (fun h => b1 (ix1 h)) z) W2 (fun c => b2 (ix1 c)) z c := by
  rw [rlay_apply wf2 _ W2 b2 hbr2 hbb2 Z2 z hZ2]
  unfold lay
  refine congrArg (fun s => max (s + b2 (ix1 c)) z) (Finset.sum_congr rfl fun h _ => ?_)
  refine congrArg (· * W2 (ix2 h c)) ?_
  beta_reduce
  rw [maximumf_apply, addf_apply, cat2_dot_apply hK, broadcastInDim_oneRow_apply, bias_row_apply, hZ1]
  rfl

/-! ## The whole-array functions -/

/-- The two-layer perceptron applied to every row of three row-aligned arrays: row R of the result depends on row R
    of each piece alone. -/
def mlp3 {E K0 K1 K2 K H O : ℕ} (o1 o2 : ℕ) (h0 : K0 ≤ K) (h1 : o1 + K1 ≤ K) (h2 : o2 + K2 ≤ K)
    (x0 : (⟨2, ![E, K0]⟩ : Shape).Idx → EReal) (x1 : (⟨2, ![E, K1]⟩ : Shape).Idx → EReal)
    (x2 : (⟨2, ![E, K2]⟩ : Shape).Idx → EReal) (W1 : (⟨2, ![K, H]⟩ : Shape).Idx → EReal) (b1 : Fin H → EReal)
    (W2 : (⟨2, ![H, O]⟩ : Shape).Idx → EReal) (b2 : Fin O → EReal) (z : EReal) :
    (⟨2, ![E, O]⟩ : Shape).Idx → EReal :=
  fun i => lay (pre3 o1 o2 h0 h1 h2 (fun k => x0 (ix2 (i 0 : Fin E) k)) (fun k => x1 (ix2 (i 0 : Fin E) k))
    (fun k => x2 (ix2 (i 0 : Fin E) k)) W1 b1 z) W2 b2 z (i 1 : Fin O)

/-- The same on two pieces. -/
def mlp2 {E K0 K1 K H O : ℕ} (o1 : ℕ) (h0 : K0 ≤ K) (h1 : o1 + K1 ≤ K)
    (x0 : (⟨2, ![E, K0]⟩ : Shape).Idx → EReal) (x1 : (⟨2, ![E, K1]⟩ : Shape).Idx → EReal)
    (W1 : (⟨2, ![K, H]⟩ : Shape).Idx → EReal) (b1 : Fin H → EReal)
    (W2 : (⟨2, ![H, O]⟩ : Shape).Idx → EReal) (b2 : Fin O → EReal) (z : EReal) :
    (⟨2, ![E, O]⟩ : Shape).Idx → EReal :=
  fun i => lay (pre2 o1 h0 h1 (fun k => x0 (ix2 (i 0 : Fin E) k)) (fun k => x1 (ix2 (i 0 : Fin E) k)) W1 b1 z)
    W2 b2 z (i 1 : Fin O)

/-- A maximum with z of a value that is already a maximum with z is that value. -/
theorem max_max_self (a z : EReal) : max (max a z) z = max a z := max_eq_left (le_max_right a z)

end Cert.MlpRows

end
-- ==== Proof.BlockBody.lean ====
/-
  One grid point's arithmetic, read at an index of the output block.

  The body multiplies the [512, 2048] token block with two [2048, 256] weight blocks (gate and up), forms
  gate * logistic(gate) * up, and adds the product of that [512, 256] tile with a [256, 2048] block of the third
  weight to what the output block held.  At row p and column q of the output block this is the previous value plus the
  sum over the 256 hidden columns of the tile; narrowing to bf16 changes nothing on the extended reals.
-/
import proofs.«180975_j44890998177889_2_alg».proof.Proof.Gen.KernelIdeal.Skeleton
import proofs.«180975_j44890998177889_2_alg».proof.Proof.LibMlpRows
import Idealize.ShloMosaic.Lib.ValueLayout

noncomputable section

open scoped BigOperators

namespace Cert.KernelIdeal.Block

open Cert.KernelIdeal Cert.KernelIdeal.Gen Idealize.ShloMosaic Idealize.ShloMosaic.ValueIdx Cert.MlpRows

/-- Row `p` of the token block against column `j` of a weight block. -/
def bproj (x0 : Vec Ideal S1x512x2048 .bf16) (w : Vec Ideal S1x2048x256 .bf16) (p : Fin 512) (j : Fin 256) : EReal :=
  ∑ d : Fin 2048, x0 (ix3 (0 : Fin 1) p d) * w (ix3 (0 : Fin 1) d j)

/-- The tile's hidden value at (p, j): gate * logistic(gate) * up. -/
def bhidden (x0 : Vec Ideal S1x512x2048 .bf16) (x1 x2 : Vec Ideal S1x2048x256 .bf16) (p : Fin 512) (j : Fin 256) : EReal :=
  bproj x0 x1 p j * Ideal.logistic (bproj x0 x1 p j) * bproj x0 x2 p j

/-- A product of the token block with a weight block into zero, read at (p, j). -/
theorem proj_apply (x0 : Vec Ideal S1x512x2048 .bf16) (w : Vec Ideal S1x2048x256 .bf16) (p : Fin 512) (j : Fin 256) :
    matmul (F := Ideal) (φ₁ := .bf16) (φ₂ := .bf16) dot_S512x2048_S2048x256_S512x256_1_0_0_1_n_n none
        (shapeCast S512x2048 x0 shapeCasts_S1x512x2048_S512x2048)
        (shapeCast S2048x256 w shapeCasts_S1x2048x256_S2048x256) (constant S512x256 .f32 0x00000000#32) (ix2 p j)
      = bproj x0 w p j := by
  refine (pmatmul_apply dot_S512x2048_S2048x256_S512x256_1_0_0_1_n_n_wf none _ _ p j).trans ?_
  unfold bproj
  refine Finset.sum_congr rfl fun d _ => ?_
  rw [shapeCast_1ab_ab_apply, shapeCast_1ab_ab_apply]

/-- The accumulating store's value at (u, p, q): what the block held plus the tile's 256 products. -/
theorem pay2_apply (x0 : Vec Ideal S1x512x2048 .bf16) (x1 x2 : Vec Ideal S1x2048x256 .bf16)
    (x3 : Vec Ideal S1x256x2048 .bf16) (acc : Vec Ideal S1x512x2048 .f32) (u : Fin 1) (p : Fin 512) (q : Fin 2048) :
    k0_pay2 (F := Ideal) x0 x1 x2 x3 acc (ix3 u p q)
      = acc (ix3 u p q) + ∑ j : Fin 256, bhidden x0 x1 x2 p j * x3 (ix3 (0 : Fin 1) j q) := by
  obtain rfl : u = 0 := Subsingleton.elim _ _
  unfold k0_pay2
  rw [shapeCast_ab_1ab_apply, addf_apply, shapeCast_1ab_ab_apply]
  refine congrArg (acc (ix3 (0 : Fin 1) p q) + ·) ?_
  refine (pmatmul_apply dot_S512x256_S256x2048_S512x2048_1_0_0_1_n_n_wf none _ _ p q).trans ?_
  refine Finset.sum_congr rfl fun j _ => ?_
  rw [truncf_apply, mulf_apply, mulf_apply, shapeCast_1ab_ab_apply]
  show (_ * Ideal.logistic _) * _ * _ = _
  rw [proj_apply, proj_apply]
  rfl

/-- The resetting store writes zero everywhere. -/
theorem pay1_apply (y : S1x512x2048.Idx) : k0_pay1 (F := Ideal) y = 0 := by
  obtain ⟨u, p, q, rfl⟩ : ∃ (u : Fin 1) (p : Fin 512) (q : Fin 2048), y = ix3 u p q := ⟨y 0, y 1, y 2, eq_ix3 y⟩
  unfold k0_pay1
  rw [shapeCast_ab_1ab_apply, broadcast_apply]
  exact Ideal.ofBits_zero_f32

end Cert.KernelIdeal.Block

end
-- ==== Proof.TileSpec.lean ====
/-
  One grid point's contribution, against the gated map.

  At a grid point the body adds to the output block, at (p, q), the sum over the 256 columns of ONE hidden tile.  When
  the point's blocks are the rows and columns of the whole arrays that its place in the grid says — the token block
  rows of expert e, the weight blocks hidden tile s of that expert — that sum is tile s of `Cert.Swiglu.out`.
-/
import proofs.«180975_j44890998177889_2_alg».proof.Proof.BlockBody
import proofs.«180975_j44890998177889_2_alg».proof.Proof.SwigluSpec

noncomputable section

open scoped BigOperators

namespace Cert.KernelIdeal.Block

open Cert.KernelIdeal Cert.KernelIdeal.Gen Idealize.ShloMosaic Idealize.ShloMosaic.ValueIdx Cert.Swiglu

/-- What one grid point adds to the output block at `y`: the tile's 256 products. -/
def tile (x0 : Vec Ideal S1x512x2048 .bf16) (x1 x2 : Vec Ideal S1x2048x256 .bf16) (x3 : Vec Ideal S1x256x2048 .bf16)
    (y : S1x512x2048.Idx) : EReal :=
  ∑ j : Fin 256, bhidden x0 x1 x2 (y 1) j * x3 (@ix3 1 256 2048 0 j (y 2))

/-- The accumulating store's value at any index of the block. -/
theorem pay2_eq (x0 : Vec Ideal S1x512x2048 .bf16) (x1 x2 : Vec Ideal S1x2048x256 .bf16)
    (x3 : Vec Ideal S1x256x2048 .bf16) (acc : Vec Ideal S1x512x2048 .f32) (y : S1x512x2048.Idx) :
    k0_pay2 (F := Ideal) x0 x1 x2 x3 acc y = acc y + tile x0 x1 x2 x3 y := by
  obtain ⟨u, p, q, rfl⟩ : ∃ (u : Fin 1) (p : Fin 512) (q : Fin 2048), y = ix3 u p q := ⟨y 0, y 1, y 2, eq_ix3 y⟩
  exact pay2_apply x0 x1 x2 x3 acc u p q

/-- A block product is a product of the whole arrays when the blocks are the rows and columns they should be. -/
theorem bproj_eq (x0 : Vec Ideal S1x512x2048 .bf16) (w : Vec Ideal S1x2048x256 .bf16)
    (a0 : (⟨3, ![8, 2048, 2048]⟩ : Shape).Idx → EReal) (a1 : (⟨3, ![8, 2048, 4096]⟩ : Shape).Idx → EReal)
    (e : Fin 8) (r : Fin 2048) (h : Fin 4096) (p : Fin 512) (j : Fin 256)
    (h0 : ∀ d : Fin 2048, x0 (ix3 (0 : Fin 1) p d) = a0 (ix3 e r d))
    (h1 : ∀ d : Fin 2048, w (ix3 (0 : Fin 1) d j) = a1 (ix3 e d h)) :
    bproj x0 w p j = proj a0 a1 e r h := by
  unfold bproj proj
  exact Finset.sum_congr rfl fun d _ => by rw [h0 d, h1 d]

/-- One grid point's contribution is hidden tile `s` of the gated map, when its blocks are row `r` of expert `e`'s
    tokens and hidden tile `s` of that expert's three weights. -/
theorem tile_eq (x0 : Vec Ideal S1x512x2048 .bf16) (x1 x2 : Vec Ideal S1x2048x256 .bf16) (x3 : Vec Ideal S1x256x2048 .bf16)
    (a0 : (⟨3, ![8, 2048, 2048]⟩ : Shape).Idx → EReal) (a1 a2 : (⟨3, ![8, 2048, 4096]⟩ : Shape).Idx → EReal)
    (a3 : (⟨3, ![8, 4096, 2048]⟩ : Shape).Idx → EReal)
    (e : Fin 8) (r : Fin 2048) (d : Fin 2048) (s : Fin 16) (u : Fin 1) (p : Fin 512)
    (h0 : ∀ d' : Fin 2048, x0 (ix3 (0 : Fin 1) p d') = a0 (ix3 e r d'))
    (h1 : ∀ (d' : Fin 2048) (j : Fin 256), x1 (ix3 (0 : Fin 1) d' j) = a1 (ix3 e d' (col s j)))
    (h2 : ∀ (d' : Fin 2048) (j : Fin 256), x2 (ix3 (0 : Fin 1) d' j) = a2 (ix3 e d' (col s j)))
    (h3 : ∀ j : Fin 256, x3 (ix3 (0 : Fin 1) j d) = a3 (ix3 e (col s j) d)) :
    tile x0 x1 x2 x3 (ix3 u p d) = ∑ j : Fin 256, hid a0 a1 a2 e r (col s j) * a3 (ix3 e (col s j) d) := by
  show ∑ j : Fin 256, bhidden x0 x1 x2 p j * x3 (ix3 (0 : Fin 1) j d) = _
  refine Finset.sum_congr rfl fun j _ => ?_
  rw [h3 j]
  refine congrArg (· * a3 (ix3 e (col s j) d)) ?_
  unfold bhidden hid
  rw [bproj_eq x0 x1 a0 a1 e r (col s j) p j h0 (fun d' => h1 d' j),
    bproj_eq x0 x2 a0 a2 e r (col s j) p j h0 (fun d' => h2 d' j)]

end Cert.KernelIdeal.Block

end
-- ==== Proof.KernelSide.lean ====
/-
  The kernel's result array is the gated map `Cert.Swiglu.out` of its four arguments.

  The grid is 8 experts by 4 row blocks by 16 hidden tiles, the hidden tile innermost.  The output block of (expert e,
  row block i) stays in place over the 16 tiles: the first tile's point resets it to zero and every point adds its
  tile's products, so after the sixteenth point the block holds zero plus the sixteen tiles' sums, and that is what is
  written back.  At point t the token block is rows 512·i … of expert e = t / 64, i = t / 16 mod 4, and the weight
  blocks are hidden columns (rows, for the third weight) 256·s … with s = t mod 16, of arrays that the host's
  narrowing to bf16 leaves unchanged on the extended reals.  The sixteen tile sums are the one sum over all 4096 hidden
  columns, regrouped.
-/
import proofs.«180975_j44890998177889_2_alg».proof.Proof.Gen.KernelIdeal.Value
import proofs.«180975_j44890998177889_2_alg».proof.Proof.TileSpec
import Idealize.ShloMosaic.Lib.StableHlo.Run

noncomputable section

open scoped BigOperators

namespace Cert.KernelIdeal.Side

open Cert.KernelIdeal Cert.KernelIdeal.Gen Cert.KernelIdeal.Value Cert.KernelIdeal.Block Cert.Swiglu
open Idealize.ShloMosaic Idealize.ShloMosaic.TcCoe Idealize.ShloMosaic.ValueIdx Idealize.SL.Sem

variable (m : (ℓ : Loc nD τ sig) → Buf (Elt Ideal) ℓ)

/-! ## The arrays the region finds -/

/-- The token array as the region finds it: the argument, narrowed to bf16, is the argument. -/
theorem V_v0 (c : Dev nD) : (V m c main_v0 : S8x2048x2048.Idx → EReal) = m ((c : Thread nD τ).loc main_arg0) := by
  dsimp only [Gen.V, Gen.hostOps0]; after_results; rfl
theorem V_v1 (c : Dev nD) : (V m c main_v1 : S8x2048x4096.Idx → EReal) = m ((c : Thread nD τ).loc main_arg1) := by
  dsimp only [Gen.V, Gen.hostOps0]; after_results; rfl
theorem V_v2 (c : Dev nD) : (V m c main_v2 : S8x2048x4096.Idx → EReal) = m ((c : Thread nD τ).loc main_arg2) := by
  dsimp only [Gen.V, Gen.hostOps0]; after_results; rfl
theorem V_v3 (c : Dev nD) : (V m c main_v3 : S8x4096x2048.Idx → EReal) = m ((c : Thread nD τ).loc main_arg3) := by
  dsimp only [Gen.V, Gen.hostOps0]; after_results; rfl

/-! ## Where each input block sits, decided over the grid -/

theorem idx_in : ∀ t : Fin cfg0.N,
    win0_0.index t (0 : Fin 3) = t.val / 64 ∧ win0_0.index t (1 : Fin 3) = t.val / 16 % 4 ∧ win0_0.index t (2 : Fin 3) = 0
    ∧ win0_1.index t (0 : Fin 3) = t.val / 64 ∧ win0_1.index t (1 : Fin 3) = 0 ∧ win0_1.index t (2 : Fin 3) = t.val % 16
    ∧ win0_2.index t (0 : Fin 3) = t.val / 64 ∧ win0_2.index t (1 : Fin 3) = 0 ∧ win0_2.index t (2 : Fin 3) = t.val % 16
    ∧ win0_3.index t (0 : Fin 3) = t.val / 64 ∧ win0_3.index t (1 : Fin 3) = t.val % 16 ∧ win0_3.index t (2 : Fin 3) = 0 :=
  (by decide +kernel : ∀ t : Fin grid0.N, _)

/-- The token block at point `t`: rows of expert `t / 64`, row block `t / 16 mod 4`. -/
theorem read0 (c : Dev nD) (t : Fin cfg0.N) (u : Fin 1) (p : Fin 512) (d : Fin 2048) (e : Fin 8) (r : Fin 2048)
    (he : t.val / 64 = e.val) (hr : t.val / 16 % 4 * 512 + p.val = r.val) :
    iblk m c 0 t (ix3 u p d) = m ((c : Thread nD τ).loc main_arg0) (ix3 e r d) := by
  show (V m c main_v0 : S8x2048x2048.Idx → EReal) (((cfg0.win 0).blk t).view.emb (ix3 u p d)) = _
  rw [V_v0]
  obtain ⟨f0, f1, f2, -⟩ := idx_in t
  have hu : u.val = 0 := by omega
  refine congrArg _ (funext fun a => Fin.ext ?_)
  match a with
  | ⟨0, _⟩ => show win0_0.index t (0 : Fin 3) * 1 + 1 * u.val = e.val; omega
  | ⟨1, _⟩ => show win0_0.index t (1 : Fin 3) * 512 + 1 * p.val = r.val; omega
  | ⟨2, _⟩ => show win0_0.index t (2 : Fin 3) * 2048 + 1 * d.val = d.val; omega

/-- The gate weight block at point `t`: hidden tile `t mod 16` of expert `t / 64`. -/
theorem read1 (c : Dev nD) (t : Fin cfg0.N) (u : Fin 1) (d : Fin 2048) (j : Fin 256) (e : Fin 8) (h : Fin 4096)
    (he : t.val / 64 = e.val) (hh : t.val % 16 * 256 + j.val = h.val) :
    iblk m c 1 t (ix3 u d j) = m ((c : Thread nD τ).loc main_arg1) (ix3 e d h) := by
  show (V m c main_v1 : S8x2048x4096.Idx → EReal) (((cfg0.win 1).blk t).view.emb (ix3 u d j)) = _
  rw [V_v1]
  obtain ⟨-, -, -, f0, f1, f2, -⟩ := idx_in t
  have hu : u.val = 0 := by omega
  refine congrArg _ (funext fun a => Fin.ext ?_)
  match a with
  | ⟨0, _⟩ => show win0_1.index t (0 : Fin 3) * 1 + 1 * u.val = e.val; omega
  | ⟨1, _⟩ => show win0_1.index t (1 : Fin 3) * 2048 + 1 * d.val = d.val; omega
  | ⟨2, _⟩ => show win0_1.index t (2 : Fin 3) * 256 + 1 * j.val = h.val; omega

/-- The up weight block at point `t`: the same tile of the second weight. -/
theorem read2 (c : Dev nD) (t : Fin cfg0.N) (u : Fin 1) (d : Fin 2048) (j : Fin 256) (e : Fin 8) (h : Fin 4096)
    (he : t.val / 64 = e.val) (hh : t.val % 16 * 256 + j.val = h.val) :
    iblk m c 2 t (ix3 u d j) = m ((c : Thread nD τ).loc main_arg2) (ix3 e d h) := by
  show (V m c main_v2 : S8x2048x4096.Idx → EReal) (((cfg0.win 2).blk t).view.emb (ix3 u d j)) = _
  rw [V_v2]
  obtain ⟨-, -, -, -, -, -, f0, f1, f2, -⟩ := idx_in t
  have hu : u.val = 0 := by omega
  refine congrArg _ (funext fun a => Fin.ext ?_)
  match a with
  | ⟨0, _⟩ => show win0_2.index t (0 : Fin 3) * 1 + 1 * u.val = e.val; omega
  | ⟨1, _⟩ => show win0_2.index t (1 : Fin 3) * 2048 + 1 * d.val = d.val; omega
  | ⟨2, _⟩ => show win0_2.index t (2 : Fin 3) * 256 + 1 * j.val = h.val; omega

/-- The third weight's block at point `t`: rows of hidden tile `t mod 16` of expert `t / 64`. -/
theorem read3 (c : Dev nD) (t : Fin cfg0.N) (u : Fin 1) (j : Fin 256) (d : Fin 2048) (e : Fin 8) (h : Fin 4096)
    (he : t.val / 64 = e.val) (hh : t.val % 16 * 256 + j.val = h.val) :
    iblk m c 3 t (ix3 u j d) = m ((c : Thread nD τ).loc main_arg3) (ix3 e h d) := by
  show (V m c main_v3 : S8x4096x2048.Idx → EReal) (((cfg0.win 3).blk t).view.emb (ix3 u j d)) = _
  rw [V_v3]
  obtain ⟨-, -, -, -, -, -, -, -, -, f0, f1, f2⟩ := idx_in t
  have hu : u.val = 0 := by omega
  refine congrArg _ (funext fun a => Fin.ext ?_)
  match a with
  | ⟨0, _⟩ => show win0_3.index t (0 : Fin 3) * 1 + 1 * u.val = e.val; omega
  | ⟨1, _⟩ => show win0_3.index t (1 : Fin 3) * 256 + 1 * j.val = h.val; omega
  | ⟨2, _⟩ => show win0_3.index t (2 : Fin 3) * 2048 + 1 * d.val = d.val; omega

/-! ## The sixteen points of a run, folded -/

/-- What point `n` adds to the output block (zero past the grid, where it is never read). -/
def addend (c : Dev nD) (n : ℕ) (y : S1x512x2048.Idx) : EReal :=
  if h : n < cfg0.N then tile (iblk m c 0 ⟨n, h⟩) (iblk m c 1 ⟨n, h⟩) (iblk m c 2 ⟨n, h⟩) (iblk m c 3 ⟨n, h⟩) y else 0

/-- After the sixteenth point of a run the output block holds zero plus the sixteen points' contributions. -/
theorem fold_apply (c : Dev nD) (b : ℕ) (h : b + 15 < cfg0.N) (y : S1x512x2048.Idx) :
    Pipeline.accAt (reset4 m c) (step4 m c) b 15 h y = 0 + ∑ s ∈ Finset.range (15 + 1), addend m c (b + s) y :=
  Pipeline.accAt_add_apply (reset4 m c) (step4 m c) (fun _ => (0 : EReal)) (addend m c) b 15
    (fun hb y => by
      unfold reset4 addend
      rw [dif_pos hb, pay2_eq (iblk m c 0 ⟨b, hb⟩) (iblk m c 1 ⟨b, hb⟩) (iblk m c 2 ⟨b, hb⟩) (iblk m c 3 ⟨b, hb⟩)
        (k0_pay1 (F := Ideal)) y, pay1_apply])
    (fun n hn acc y _ _ => by
      unfold step4 addend
      rw [dif_pos hn]
      exact pay2_eq (iblk m c 0 ⟨n, hn⟩) (iblk m c 1 ⟨n, hn⟩) (iblk m c 2 ⟨n, hn⟩) (iblk m c 3 ⟨n, hn⟩) acc y)
    15 le_rfl h y

/-! ## The whole array -/

/-- The output array after the run is the gated map of the four argument arrays. -/
theorem G4_eq (c : Dev nD) :
    G4 (F := Ideal) m c = out (m ((c : Thread nD τ).loc main_arg0)) (m ((c : Thread nD τ).loc main_arg1))
      (m ((c : Thread nD τ).loc main_arg2)) (m ((c : Thread nD τ).loc main_arg3)) := by
  funext i
  obtain ⟨e, r, d, rfl⟩ : ∃ (e : Fin 8) (r : Fin 2048) (d : Fin 2048), i = ix3 e r d := ⟨i 0, i 1, i 2, eq_ix3 i⟩
  have he := e.isLt
  have hr := r.isLt
  have hd := d.isLt
  have hN : cfg0.N = 512 := N_0
  have hrun : run4Of (ix3 e r d) = 4 * e.val + r.val / 512 := by
    show 4 * (e.val / 1 - 0) + 1 * (r.val / 512 - 0) + 1 * (d.val / 2048 - 0) = _
    omega
  have hl : loc4Of (ix3 e r d) = ix3 (0 : Fin 1) (⟨r.val % 512, Nat.mod_lt _ (by decide)⟩ : Fin 512) d :=
    funext fun a => Fin.ext (by
      match a with
      | ⟨0, _⟩ => show e.val % 1 = 0; omega
      | ⟨1, _⟩ => rfl
      | ⟨2, _⟩ => show d.val % 2048 = d.val; omega)
  have hb : 16 * run4Of (ix3 e r d) + 15 < cfg0.N := by rw [hrun, hN]; omega
  unfold G4
  rw [dif_pos hb]
  refine (fold_apply m c _ hb _).trans ?_
  rw [zero_add, Finset.sum_range, out_tiles, hl]
  refine Finset.sum_congr rfl fun s _ => ?_
  have hs := s.isLt
  have ht : 16 * run4Of (ix3 e r d) + s.val < cfg0.N := by rw [hrun, hN]; omega
  have h64 : (16 * run4Of (ix3 e r d) + s.val) / 64 = e.val := by rw [hrun]; omega
  have h16 : (16 * run4Of (ix3 e r d) + s.val) / 16 % 4 * 512 + r.val % 512 = r.val := by rw [hrun]; omega
  have hmod : ∀ j : Fin 256, (16 * run4Of (ix3 e r d) + s.val) % 16 * 256 + j.val = (col s j).val := by
    intro j; rw [hrun]; show _ = s.val * 256 + j.val; omega
  unfold addend
  rw [dif_pos ht]
  exact tile_eq (iblk m c 0 ⟨_, ht⟩) (iblk m c 1 ⟨_, ht⟩) (iblk m c 2 ⟨_, ht⟩) (iblk m c 3 ⟨_, ht⟩)
    (m ((c : Thread nD τ).loc main_arg0)) (m ((c : Thread nD τ).loc main_arg1))
    (m ((c : Thread nD τ).loc main_arg2)) (m ((c : Thread nD τ).loc main_arg3)) e r d s 0
    (⟨r.val % 512, Nat.mod_lt _ (by decide)⟩ : Fin 512)
    (fun d' => read0 m c ⟨_, ht⟩ 0 _ d' e r h64 h16)
    (fun d' j => read1 m c ⟨_, ht⟩ 0 d' j e (col s j) h64 (hmod j))
    (fun d' j => read2 m c ⟨_, ht⟩ 0 d' j e (col s j) h64 (hmod j))
    (fun j => read3 m c ⟨_, ht⟩ 0 j d e (col s j) h64 (hmod j))

end Cert.KernelIdeal.Side

end
-- ==== Proof.lean ====
/-
  A per-expert gated two-layer map: for each of 8 experts, out = (silu(x · w1) * (x · w2)) · w3 with
  silu(g) = g * logistic(g), over f32[8, 2048, 2048] tokens and [2048, 4096] / [4096, 2048] weights.

  The kernel walks a grid of 8 experts × 4 row blocks × 16 hidden tiles.  At each point it forms the [512, 256] hidden
  tile from the token block and one column tile of w1 and w2, multiplies it with the matching row tile of w3, and adds
  the [512, 2048] product into the output block, which it first sets to zero on a row block's first tile and writes
  back after its last.  The reference computes the three batched products whole.  On the extended reals narrowing to
  bf16 is the identity, the logistic function is 1 / (1 + exp (-g)) on both sides, and the kernel's result at
  (e, r, d) is zero plus the sum over the 16 tiles of each tile's 256 products — the reference's single sum over the
  4096 hidden columns, regrouped, which needs only that addition is commutative and associative.  No finiteness of the
  inputs is used.

  `Cert.Swiglu.out` is that function of the four arrays; `RefSide.result_eq` reads the reference's run as it,
  `Side.G4_eq` the kernel's folded output array.  The ideal pass rewrote nothing, so `preserves` is trivial.
-/
import proofs.«180975_j44890998177889_2_alg».proof.Defs
import proofs.«180975_j44890998177889_2_alg».proof.Proof.Gen.Kernel.Frame
import proofs.«180975_j44890998177889_2_alg».proof.Proof.Gen.KernelIdeal.Value
import proofs.«180975_j44890998177889_2_alg».proof.Proof.Gen.Pre_finite_inputs
import proofs.«180975_j44890998177889_2_alg».proof.Proof.Gen.ReferenceIdeal.Run
import proofs.«180975_j44890998177889_2_alg».proof.Proof.RefSide
import proofs.«180975_j44890998177889_2_alg».proof.Proof.KernelSide
import Idealize.ShloMosaic.Adequacy
import Idealize.ShloMosaic.Init

noncomputable section

namespace Cert.Proof

open Idealize.ShloMosaic Idealize.SL.Sem

/-- The idealized kernel's frame: its value run with the result dropped. -/
theorem frame_KernelIdeal : frame_KernelIdeal := fun m ρ _ =>
  (θ_run Cert.KernelIdeal.defs _ _).mono (fun _ h c => (h c).2) (Cert.KernelIdeal.Value.run (F := Ideal) m ρ)

/-- The reference's frame: its run with the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- Both runs end with the gated map of the (agreeing) argument arrays in the result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v4_eq]
  exact (Cert.ReferenceIdeal.RefSide.result_eq _ _ _ _).trans (Cert.KernelIdeal.Side.G4_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
